-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S8192 : Shape := ⟨1, ![8192]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16x512x64x64 .f32) (main_arg1 : FVec F S8192 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S16x512x64x64 : Shape := ⟨4, ![16, 512, 64, 64]⟩
abbrev S8192 : Shape := ⟨1, ![8192]⟩
abbrev S16x64x64x512 : Shape := ⟨4, ![16, 64, 64, 512]⟩
abbrev S16x1x512 : Shape := ⟨3, ![16, 1, 512]⟩
abbrev S16x1x128 : Shape := ⟨3, ![16, 1, 128]⟩
abbrev S16x1x1 : Shape := ⟨3, ![16, 1, 1]⟩
abbrev S16 : Shape := ⟨1, ![16]⟩
abbrev S_ : Shape := ⟨0, ![]⟩
abbrev S1x64x64x512 : Shape := ⟨4, ![1, 64, 64, 512]⟩
abbrev S1x1x512 : Shape := ⟨3, ![1, 1, 512]⟩
abbrev S1x1x128 : Shape := ⟨3, ![1, 1, 128]⟩
abbrev S64x64x512 : Shape := ⟨3, ![64, 64, 512]⟩
abbrev S64x512 : Shape := ⟨2, ![64, 512]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 11
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S8192, .f32⟩
  | .hbm, ⟨2, _⟩ => ⟨S16x64x64x512, .f32⟩
  | .hbm, ⟨3, _⟩ => ⟨S16x1x512, .f32⟩
  | .hbm, ⟨4, _⟩ => ⟨S16x1x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x64x64x512, .f32⟩
  | .local _ .vmem, ⟨1, _⟩ => ⟨S1x64x64x512, .f32⟩
  | .local _ .vmem, ⟨2, _⟩ => ⟨S1x1x512, .f32⟩
  | .local _ .vmem, ⟨3, _⟩ => ⟨S1x1x512, .f32⟩
  | .local _ .vmem, ⟨4, _⟩ => ⟨S1x1x128, .f32⟩
  | .local _ .vmem, ⟨5, _⟩ => ⟨S1x1x128, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_cst : Ref sig .tc := ⟨.hbm, 7, rfl⟩
abbrev main_call0_v5 : Ref sig .tc := ⟨.hbm, 8, rfl⟩
abbrev main_call0_cst_0 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x512x64x64_S16x64x64x512_0_2_3_1 : S16x512x64x64.Transposes [0, 2, 3, 1] S16x64x64x512
  shapeCasts_S8192_S16x1x512 : S8192.ShapeCasts S16x1x512
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  reduces_S64x64x512_S64x512 : S64x64x512.Reduces [0] S64x512
  reduces_S64x512_S512 : S64x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S16x64x64x512.size a
  hwx0_0 : ∀ i : grid0.Coords, EltTy.bits .f32 = 32 ∨ (Rect.block (s := S16x64x64x512) S1x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

abbrev win0_0 : Pipeline.Window sig grid0 :=
  Pipeline.Window.ofSpec (Memref.whole main_call0_v0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S8192 : Shape := ⟨1, ![8192]⟩
abbrev S8192x4096 : Shape := ⟨2, ![8192, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S8192, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  shapeCasts_S16x512x64x64_S8192x4096 : S16x512x64x64.ShapeCasts S8192x4096
  reducesTo_S8192x4096_S8192_d1 : S8192x4096.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.Spec.lean ====
/-
  The quantity both programs compute, as one formula on the extended reals, and the algebra that joins
  the two arrangements of it.

  For an array x over [16, 512, 64, 64] and a target over [8192], row (a, b) of x — the 64 × 64 plane
  x[a, b, ·, ·] — has energy  E(a, b) = Σ_d Σ_c x[a, b, c, d]².  The loss is

      ( Σ_a Σ_b ( E(a, b) · 2⁻²⁵ − target[512·a + b] )² ) / 8192.

  One program sums a plane over c and then over d and multiplies by 2⁻²⁵; the other flattens the plane to
  4096 entries, sums them in one pass from 0, and divides by 2²⁵. Likewise one sums the 8192 squared
  deviations as 16 partial sums of 512, the other in one pass from 0. On the extended reals addition is
  commutative and associative with 0 neutral, so a sum may be regrouped freely — no finiteness is needed
  for that —, and dividing by the real 2²⁵ is multiplying by 2⁻²⁵ at every extended real, the infinities
  included. Those two facts are everything below.
-/
import Idealize.ShloMosaic.PureOps.Ideal
import Idealize.ShloMosaic.PureOps.Ideal.Laws
import Idealize.ShloMosaic.Lib.ValueIdx
import proofs.«165049_g13640816132828_feedfinal_596_6_alg».proof.Proof.LibSumRegroup

noncomputable section

open scoped BigOperators

namespace Cert.StyleLoss

open Idealize.ShloMosaic Idealize.ShloMosaic.ValueIdx Cert.Lib.SumRegroup

/-! ## The formula -/

/-- Row (a, b) of the [16, 512] grid of planes, flattened: 512·a + b. -/
abbrev row (a : Fin 16) (b : Fin 512) : Fin 8192 := ⟨a.val * 512 + b.val, by omega⟩

/-- The factor 2⁻²⁵ = 1 / (16·512·64·64), as the float word that spells it. -/
abbrev scale : EReal := Ideal.ofBits .f32 0x33000000#32

/-- The number of rows, 8192, as the float word that spells it. -/
abbrev count : EReal := Ideal.ofBits .f32 0x46000000#32

/-- The energy of plane (a, b): the sum of the squares of its 64 × 64 entries, the inner sum over the
    first plane axis. -/
def energy (x : (⟨4, ![16, 512, 64, 64]⟩ : Shape).Idx → EReal) (a : Fin 16) (b : Fin 512) : EReal :=
  ∑ d : Fin 64, ∑ c : Fin 64, x (ix4 a b c d) * x (ix4 a b c d)

/-- The squared deviation of row (a, b): (E(a, b) · 2⁻²⁵ − target[512·a + b])². -/
def sqdev (x : (⟨4, ![16, 512, 64, 64]⟩ : Shape).Idx → EReal) (tg : (⟨1, ![8192]⟩ : Shape).Idx → EReal)
    (a : Fin 16) (b : Fin 512) : EReal :=
  (energy x a b * scale - tg (ix1 (row a b))) * (energy x a b * scale - tg (ix1 (row a b)))

/-- The sum of the squared deviations of the 512 rows that share the first coordinate a. -/
def partialSum (x : (⟨4, ![16, 512, 64, 64]⟩ : Shape).Idx → EReal) (tg : (⟨1, ![8192]⟩ : Shape).Idx → EReal)
    (a : Fin 16) : EReal :=
  ∑ b : Fin 512, sqdev x tg a b

/-- The loss: the mean of the 8192 squared deviations. -/
def loss (x : (⟨4, ![16, 512, 64, 64]⟩ : Shape).Idx → EReal) (tg : (⟨1, ![8192]⟩ : Shape).Idx → EReal) : EReal :=
  Ideal.div (∑ a : Fin 16, partialSum x tg a) count

/-! ## Regrouping a sum -/

/-- The 8192 rows summed in one pass are the 16 × 512 rows summed a by a. -/
theorem sum_rows {M : Type*} [AddCommMonoid M] (f : (⟨1, ![8192]⟩ : Shape).Idx → M) :
    ∑ j, f j = ∑ a : Fin 16, ∑ b : Fin 512, f (ix1 (row a b)) := by
  rw [sum_idx1, sum_fin_mul 16 512 8192 (by norm_num)]
  refine Finset.sum_congr rfl fun a _ => Finset.sum_congr rfl fun b _ => ?_
  refine congrArg f (congrArg ix1 (Fin.ext ?_))
  show (finProdFinEquiv (a, b)).val = a.val * 512 + b.val
  rw [finProdFinEquiv_apply_val]
  show b.val + 512 * a.val = a.val * 512 + b.val
  omega

/-- The 4096 entries of a plane summed in one pass — entry k at plane position (k / 64, k % 64) — are
    the plane summed over its first axis and then over its second. -/
theorem sum_plane {M : Type*} [AddCommMonoid M] (f : Fin 4096 → M) (g : Fin 64 → Fin 64 → M)
    (h : ∀ (c d : Fin 64) (k : Fin 4096), k.val = 64 * c.val + d.val → f k = g c d) :
    ∑ k : Fin 4096, f k = ∑ d : Fin 64, ∑ c : Fin 64, g c d := by
  rw [sum_fin_mul 64 64 4096 (by norm_num), Finset.sum_comm]
  refine Finset.sum_congr rfl fun d _ => Finset.sum_congr rfl fun c _ => ?_
  refine h c d _ ?_
  show (finProdFinEquiv (c, d)).val = 64 * c.val + d.val
  rw [finProdFinEquiv_apply_val]
  show d.val + 64 * c.val = 64 * c.val + d.val
  omega

/-! ## The two constants, and the quotient as a product -/

/-- The word 0x4C000000 spells 2²⁵ = 33554432. -/
theorem ofBits_two_pow_25 : Ideal.ofBits .f32 0x4C000000#32 = ((33554432 : ℝ) : EReal) := by
  simp [Ideal.ofBits, Ideal.ieee, -EReal.coe_mul]; norm_num

/-- The word 0x33000000 spells 2⁻²⁵ = 1 / 33554432, exactly. -/
theorem scale_eq : scale = ((1 / 33554432 : ℝ) : EReal) := by
  show Ideal.ofBits .f32 0x33000000#32 = _
  simp [Ideal.ofBits, Ideal.ieee, -EReal.coe_mul]; norm_num

/-- Dividing by 2²⁵ is multiplying by 2⁻²⁵, at every extended real; and a sum started from the zero word is
    the sum. -/
theorem div_two_pow_25 (s : EReal) :
    Ideal.div (Ideal.ofBits .f32 0x00000000#32 + s) (Ideal.ofBits .f32 0x4C000000#32) = s * scale := by
  rw [Ideal.ofBits_zero_f32, zero_add, ofBits_two_pow_25, Ideal.div_coe (by norm_num), scale_eq]

end Cert.StyleLoss

end
-- ==== Proof.RefValue.lean ====
/-
  The reference program computes the loss formula.

  Its stages, read one entry at a time: the argument x is flattened to [8192, 4096], so that row
  512·a + b holds plane (a, b) with entry k at plane position (k / 64, k % 64); each entry is squared;
  each row is summed from 0 and divided by 2²⁵ — the energy of the plane times 2⁻²⁵ —; the target is
  subtracted and the difference squared; the 8192 results are summed from 0 and divided by 8192.
  Regrouping the two sums (a plane's 4096 entries as 64 × 64, the 8192 rows as 16 × 512) gives the formula.
-/
import proofs.«165049_g13640816132828_feedfinal_596_6_alg».proof.Proof.Gen.ReferenceIdeal.Run
import proofs.«165049_g13640816132828_feedfinal_596_6_alg».proof.Proof.Gen.ReferenceIdeal.Read
import proofs.«165049_g13640816132828_feedfinal_596_6_alg».proof.Proof.Spec

noncomputable section

open scoped BigOperators

namespace Cert.ReferenceIdeal.RefValue

open Cert.ReferenceIdeal Cert.ReferenceIdeal.Read Idealize.ShloMosaic Idealize.ShloMosaic.ValueIdx Cert.StyleLoss

/-- Entry k of flattened row 512·a + b is entry (k / 64, k % 64) of plane (a, b): the row-major position
    ((512·a + b)·4096 + k) of the [16, 512, 64, 64] array has those four coordinates. -/
theorem flat_index (a : Fin 16) (b : Fin 512) (c d : Fin 64) (k : Fin 4096) (hk : k.val = 64 * c.val + d.val) :
    idx_main_v0 (idx_main_v2 (ix1 (row a b)) k) = ix4 a b c d := by
  have ha : a.val < 16 := a.isLt
  have hb : b.val < 512 := b.isLt
  have hc : c.val < 64 := c.isLt
  have hd : d.val < 64 := d.isLt
  funext e
  apply Fin.ext
  match e with
  | ⟨0, _⟩ => show ((a.val * 512 + b.val) * 4096 + k.val) / 2097152 = a.val; omega
  | ⟨1, _⟩ => show ((a.val * 512 + b.val) * 4096 + k.val) / 4096 % 512 = b.val; omega
  | ⟨2, _⟩ => show ((a.val * 512 + b.val) * 4096 + k.val) / 64 % 64 = c.val; omega
  | ⟨3, _⟩ => show ((a.val * 512 + b.val) * 4096 + k.val) % 64 = d.val; omega

/-- The squared entry k of flattened row 512·a + b is the square of entry (k / 64, k % 64) of plane (a, b). -/
theorem squared_entry (x0 : (⟨S16x512x64x64, .f32⟩ : BufTy).Contents (Elt Ideal)) (a : Fin 16) (b : Fin 512)
    (c d : Fin 64) (k : Fin 4096) (hk : k.val = 64 * c.val + d.val) :
    val_main_v1 (F := Ideal) x0 (idx_main_v2 (ix1 (row a b)) k) = x0 (ix4 a b c d) * x0 (ix4 a b c d) := by
  rw [val_main_v1_apply, val_main_v0_apply, flat_index a b c d k hk]
  rfl

/-- A flattened row summed from 0 and divided by 2²⁵ is the plane's energy times 2⁻²⁵. -/
theorem scaled_energy (x0 : (⟨S16x512x64x64, .f32⟩ : BufTy).Contents (Elt Ideal)) (a : Fin 16) (b : Fin 512) :
    val_main_v4 (F := Ideal) x0 (ix1 (row a b)) = energy x0 a b * scale := by
  rw [val_main_v4_apply, val_main_v3_apply, val_main_cst_0_apply, val_main_v2_apply, val_main_cst_apply]
  show Ideal.div (Ideal.ofBits .f32 0x00000000#32 + _) (Ideal.ofBits .f32 0x4C000000#32) = _
  rw [div_two_pow_25,
    sum_plane _ (fun c d => x0 (ix4 a b c d) * x0 (ix4 a b c d)) (fun c d k hk => squared_entry x0 a b c d k hk)]
  rfl

/-- The stage before the last sum, at row 512·a + b, is the row's squared deviation. -/
theorem squared_deviation (x0 : (⟨S16x512x64x64, .f32⟩ : BufTy).Contents (Elt Ideal))
    (x1 : (⟨S8192, .f32⟩ : BufTy).Contents (Elt Ideal)) (a : Fin 16) (b : Fin 512) :
    val_main_v6 (F := Ideal) x0 x1 (ix1 (row a b)) = sqdev x0 x1 a b := by
  rw [val_main_v6_apply, val_main_v5_apply, scaled_energy]
  rfl

/-- The reference's result is the loss. -/
theorem result_eq_loss (x0 : (⟨S16x512x64x64, .f32⟩ : BufTy).Contents (Elt Ideal))
    (x1 : (⟨S8192, .f32⟩ : BufTy).Contents (Elt Ideal)) :
    val_main_v8 (F := Ideal) x0 x1 = fun _ => loss x0 x1 := by
  funext i
  rw [val_main_v8_apply, val_main_v7_apply, val_main_cst_1_apply, val_main_cst_2_apply]
  show Ideal.div (Ideal.ofBits .f32 0x00000000#32 + _) count = _
  rw [Ideal.ofBits_zero_f32, zero_add, sum_rows]
  unfold loss partialSum
  refine congrArg (fun s => Ideal.div s count) ?_
  exact Finset.sum_congr rfl fun a _ => Finset.sum_congr rfl fun b _ => squared_deviation x0 x1 a b

end Cert.ReferenceIdeal.RefValue

end
-- ==== Proof.Body.lean ====
/-
  What one grid step stores, as a number.

  At step a the body holds the block x[a] laid out [1, 64(c), 64(d), 512(b)] — the 512 planes that share
  the first coordinate a, plane index last — and the 512 targets of those rows laid out [1, 1, 512]. It
  squares every entry, sums over c, then over d (a plane's energy, for every b at once), multiplies by
  2⁻²⁵, subtracts the targets, squares, and sums over b. That one number — the partial sum of the 512
  squared deviations — is written to all 128 lanes of the step's output block.

  The body's value is restated here as a short chain of named vectors, each read at explicit coordinates.
-/
import proofs.«165049_g13640816132828_feedfinal_596_6_alg».proof.Proof.Gen.KernelIdeal.Skeleton
import proofs.«165049_g13640816132828_feedfinal_596_6_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.StyleLoss

/-! ## The number a step stores -/

/-- The partial sum of a step, from its two blocks: Σ_b ((Σ_d Σ_c x[0, c, d, b]²) · 2⁻²⁵ − t[0, 0, b])². -/
def blockLoss (x0 : Vec Ideal S1x64x64x512 .f32) (x1 : Vec Ideal S1x1x512 .f32) : EReal :=
  ∑ b : Fin 512,
    ((∑ d : Fin 64, ∑ c : Fin 64, (x0 (ix4 (0 : Fin 1) c d b) : EReal) * x0 (ix4 (0 : Fin 1) c d b)) * scale
        - x1 (ix3 (0 : Fin 1) (0 : Fin 1) b))
      * ((∑ d : Fin 64, ∑ c : Fin 64, (x0 (ix4 (0 : Fin 1) c d b) : EReal) * x0 (ix4 (0 : Fin 1) c d b)) * scale
        - x1 (ix3 (0 : Fin 1) (0 : Fin 1) b))

/-! ## The body's intermediate vectors -/

/-- Every entry of the block squared, the leading unit axis dropped: [64(c), 64(d), 512(b)]. -/
def squares (x0 : Vec Ideal S1x64x64x512 .f32) : FVec Ideal S64x64x512 .f32 :=
  mulf (shapeCast S64x64x512 x0 shapeCasts_S1x64x64x512_S64x64x512) (shapeCast S64x64x512 x0 shapeCasts_S1x64x64x512_S64x64x512)

/-- Summed over c: [64(d), 512(b)]. -/
def sumOverC (x0 : Vec Ideal S1x64x64x512 .f32) : FVec Ideal S64x512 .f32 :=
  multiReduction (F := Ideal) .add [0] S64x512 (squares x0) 0x00000000#32 reduces_S64x64x512_S64x512 (.inl rfl) rfl

/-- Summed over d as well: the 512 plane energies. -/
def energies (x0 : Vec Ideal S1x64x64x512 .f32) : FVec Ideal S512 .f32 :=
  multiReduction (F := Ideal) .add [0] S512 (sumOverC x0) 0x00000000#32 reduces_S64x512_S512 (.inl rfl) rfl

/-- Scaled by 2⁻²⁵, the targets subtracted: the 512 deviations. -/
def deviations (x0 : Vec Ideal S1x64x64x512 .f32) (x1 : Vec Ideal S1x1x512 .f32) : FVec Ideal S512 .f32 :=
  subf (mulf (energies x0) (broadcast S512 (Scalar.ofBits (F := Ideal) .f32 0x33000000#32))) (shapeCast S512 x1 shapeCasts_S1x1x512_S512)

/-- Squared, as one row [1, 512]. -/
def squaredDeviations (x0 : Vec Ideal S1x64x64x512 .f32) (x1 : Vec Ideal S1x1x512 .f32) : FVec Ideal S1x512 .f32 :=
  shapeCast S1x512 (mulf (deviations x0 x1) (deviations x0 x1)) shapeCasts_S512_S1x512

/-- Summed over b: one number, as a vector of length 1. -/
def total (x0 : Vec Ideal S1x64x64x512 .f32) (x1 : Vec Ideal S1x1x512 .f32) : FVec Ideal S1 .f32 :=
  multiReduction (F := Ideal) .add [1] S1 (squaredDeviations x0 x1) 0x00000000#32 reduces_S1x512_S1 (.inl rfl) rfl

/-- The body's stored vector is that number on every lane. -/
theorem payload_eq (x0 : Vec Ideal S1x64x64x512 .f32) (x1 : Vec Ideal S1x1x512 .f32) :
    k0_pay1 (F := Ideal) x0 x1
      = broadcast S1x1x128 (extractAt ![0, 0] (shapeCast S1x1 (total x0 x1) shapeCasts_S1_S1x1) inpos_S1x1_p0_0) := rfl

/-! ## Each vector at its coordinates -/

theorem squares_apply (x0 : Vec Ideal S1x64x64x512 .f32) (c d : Fin 64) (b : Fin 512) :
    squares x0 (ix3 c d b) = (x0 (ix4 (0 : Fin 1) c d b) : EReal) * x0 (ix4 (0 : Fin 1) c d b) := by
  have e : shapeCast S64x64x512 x0 shapeCasts_S1x64x64x512_S64x64x512 (ix3 c d b) = x0 (ix4 (0 : Fin 1) c d b) :=
    shapeCast_apply x0 shapeCasts_S1x64x64x512_S64x64x512 (ix3 c d b) (ix4 (0 : Fin 1) c d b) (by
      rw [Shape.rowMajor_val_four, Shape.rowMajor_val_three]
      show ((0 * 64 + c.val) * 64 + d.val) * 512 + b.val = (c.val * 64 + d.val) * 512 + b.val
      omega)
  unfold squares
  rw [mulf_apply, e]

theorem sumOverC_apply (x0 : Vec Ideal S1x64x64x512 .f32) (d : Fin 64) (b : Fin 512) :
    sumOverC x0 (ix2 d b) = ∑ c : Fin 64, (x0 (ix4 (0 : Fin 1) c d b) : EReal) * x0 (ix4 (0 : Fin 1) c d b) := by
  unfold sumOverC
  refine (Ideal.multiReduction_add_single (squares x0) 0x00000000#32 reduces_S64x64x512_S64x512 (.inl rfl) rfl (ix2 d b)).trans ?_
  refine Finset.sum_congr rfl fun (c : Fin 64) _ => ?_
  refine (congrArg (squares x0) ?_).trans (squares_apply x0 c d b)
  funext a
  apply Fin.ext
  match a with
  | ⟨0, _⟩ => rfl
  | ⟨1, _⟩ => rfl
  | ⟨2, _⟩ => rfl

theorem energies_apply (x0 : Vec Ideal S1x64x64x512 .f32) (b : Fin 512) :
    energies x0 (ix1 b) = ∑ d : Fin 64, ∑ c : Fin 64, (x0 (ix4 (0 : Fin 1) c d b) : EReal) * x0 (ix4 (0 : Fin 1) c d b) := by
  unfold energies
  refine (Ideal.multiReduction_add_single (sumOverC x0) 0x00000000#32 reduces_S64x512_S512 (.inl rfl) rfl (ix1 b)).trans ?_
  refine Finset.sum_congr rfl fun (d : Fin 64) _ => ?_
  refine (congrArg (sumOverC x0) ?_).trans (sumOverC_apply x0 d b)
  funext a
  apply Fin.ext
  match a with
  | ⟨0, _⟩ => rfl
  | ⟨1, _⟩ => rfl

theorem deviations_apply (x0 : Vec Ideal S1x64x64x512 .f32) (x1 : Vec Ideal S1x1x512 .f32) (b : Fin 512) :
    deviations x0 x1 (ix1 b)
      = (∑ d : Fin 64, ∑ c : Fin 64, (x0 (ix4 (0 : Fin 1) c d b) : EReal) * x0 (ix4 (0 : Fin 1) c d b)) * scale
        - x1 (ix3 (0 : Fin 1) (0 : Fin 1) b) := by
  have e : shapeCast S512 x1 shapeCasts_S1x1x512_S512 (ix1 b) = x1 (ix3 (0 : Fin 1) (0 : Fin 1) b) :=
    shapeCast_apply x1 shapeCasts_S1x1x512_S512 (ix1 b) (ix3 (0 : Fin 1) (0 : Fin 1) b) (by
      rw [Shape.rowMajor_val_three, Shape.rowMajor_val_one]
      show (0 * 1 + 0) * 512 + b.val = b.val
      omega)
  unfold deviations
  rw [subf_apply, mulf_apply, e, energies_apply]
  rfl

theorem squaredDeviations_apply (x0 : Vec Ideal S1x64x64x512 .f32) (x1 : Vec Ideal S1x1x512 .f32) (b : Fin 512) :
    squaredDeviations x0 x1 (ix2 (0 : Fin 1) b) = deviations x0 x1 (ix1 b) * deviations x0 x1 (ix1 b) := by
  unfold squaredDeviations
  refine (shapeCast_apply _ shapeCasts_S512_S1x512 (ix2 (0 : Fin 1) b) (ix1 b) ?_).trans (mulf_apply _ _ _)
  rw [Shape.rowMajor_val_one, Shape.rowMajor_val_two]
  show b.val = 0 * 512 + b.val
  omega

theorem total_apply (x0 : Vec Ideal S1x64x64x512 .f32) (x1 : Vec Ideal S1x1x512 .f32) :
    total x0 x1 (ix1 (0 : Fin 1)) = blockLoss x0 x1 := by
  unfold total blockLoss
  refine (Ideal.multiReduction_add_single (squaredDeviations x0 x1) 0x00000000#32 reduces_S1x512_S1 (.inl rfl) rfl (ix1 (0 : Fin 1))).trans ?_
  refine Finset.sum_congr rfl fun (b : Fin 512) _ => ?_
  refine (congrArg (squaredDeviations x0 x1) ?_).trans ((squaredDeviations_apply x0 x1 b).trans ?_)
  · funext a
    apply Fin.ext
    match a with
    | ⟨0, _⟩ => rfl
    | ⟨1, _⟩ => rfl
  · rw [deviations_apply]

/-- Every lane of the stored vector is the step's partial sum. -/
theorem stored_value (x0 : Vec Ideal S1x64x64x512 .f32) (x1 : Vec Ideal S1x1x512 .f32) (j : S1x1x128.Idx) :
    k0_pay1 (F := Ideal) x0 x1 j = blockLoss x0 x1 := by
  rw [payload_eq]
  show shapeCast S1x1 (total x0 x1) shapeCasts_S1_S1x1 (fun a => ⟨(![0, 0] : Fin 2 → Nat) a, inpos_S1x1_p0_0 a⟩) = _
  refine (shapeCast_apply _ shapeCasts_S1_S1x1 _ (ix1 (0 : Fin 1)) ?_).trans (total_apply x0 x1)
  rw [Shape.rowMajor_val_one, Shape.rowMajor_val_two]
  rfl

end Cert.KernelIdeal.Body

end
-- ==== Proof.KernelValue.lean ====
/-
  The kernel program's result is the loss formula.

  Before the grid runs, the host lays the argument x out as [16, 64(c), 64(d), 512(b)] (plane index last)
  and the target as [16, 1, 512]. Step a of the 16-step grid reads block a of each — the 512 planes
  x[a, ·, ·, ·] and the targets of rows 512·a … 512·a + 511 — and writes its partial sum, the 512 squared
  deviations of those rows added up, to all 128 lanes of block a of a [16, 1, 128] array. The 16 blocks
  tile that array, so after the grid its entry (a, 0, l) is the partial sum of a, whatever the lane l.
  After the grid the host takes lane 0 of each block, adds the 16 partial sums from 0, and divides by 8192.
-/
import proofs.«165049_g13640816132828_feedfinal_596_6_alg».proof.Proof.Gen.KernelIdeal.Frame
import proofs.«165049_g13640816132828_feedfinal_596_6_alg».proof.Proof.Body
import proofs.«165049_g13640816132828_feedfinal_596_6_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.StyleLoss Cert.Lib.SumRegroup
open Idealize.ShloMosaic.Pipeline (Dat)

variable (m : (ℓ : Loc nD τ sig) → Buf (Elt Ideal) ℓ) (ρ : Dev nD → PrngReg)

/-! ## The grid and its index maps -/

/-- A grid point as the first coordinate it serves: the grid has 16 points. -/
def slab (t : Fin cfg0.N) : Fin 16 := ⟨t.val, by have h : cfg0.N = 16 := N_0; have := t.isLt; omega⟩

/-- At point t every window sits at block t along its first axis and at block 0 along the others. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-! ## The arrays the grid reads, as the host lines before it leave them -/

/-- The first staged array is the argument with its plane index moved last. -/
theorem planes_last (c : Dev nD) :
    (V m c main_call0_v0 : S16x64x64x512.Idx → EReal)
      = transpose S16x64x64x512 [0, 2, 3, 1] (m ((c : Thread nD τ).loc main_arg0)) transposes_S16x512x64x64_S16x64x64x512_0_2_3_1 := by
  show StableHlo.after hostOps0 (fun b => m (c, b)) (Proc.devRef .tc main_call0_v0) = _
  after_results
  rfl

/-- The second staged array is the target cut into 16 rows of 512. -/
theorem targets_by_slab (c : Dev nD) :
    (V m c main_call0_v1 : S16x1x512.Idx → EReal)
      = shapeCast S16x1x512 (m ((c : Thread nD τ).loc main_arg1)) shapeCasts_S8192_S16x1x512 := by
  show StableHlo.after hostOps0 (fun b => m (c, b)) (Proc.devRef .tc main_call0_v1) = _
  after_results
  rfl

/-- Entry (0, c, d, b) of the first window's block at point t is x[t, b, c, d]. -/
theorem plane_block_apply (c : Dev nD) (t : Fin cfg0.N) (cc dd : Fin 64) (b : Fin 512) :
    (iblk m c 0 t : Vec Ideal S1x64x64x512 .f32) (ix4 (0 : Fin 1) cc dd b)
      = (m ((c : Thread nD τ).loc main_arg0) : S16x512x64x64.Idx → EReal) (ix4 (slab t) b cc dd) := by
  obtain ⟨e0, e1, e2, e3, -⟩ := index_facts t
  unfold iblk
  rw [View.read_apply]
  show (V m c main_call0_v0 : S16x64x64x512.Idx → EReal) (((cfg0.win 0).blk t).view.emb (ix4 (0 : Fin 1) cc dd b)) = _
  rw [planes_last]
  refine transpose_apply _ _ _ _ (ix4 (slab t) b cc dd) fun a => ?_
  match a with
  | ⟨0, _⟩ => show t.val = win0_0.index t (0 : Fin 4) * 1 + 1 * 0; omega
  | ⟨1, _⟩ => show cc.val = win0_0.index t (1 : Fin 4) * 64 + 1 * cc.val; omega
  | ⟨2, _⟩ => show dd.val = win0_0.index t (2 : Fin 4) * 64 + 1 * dd.val; omega
  | ⟨3, _⟩ => show b.val = win0_0.index t (3 : Fin 4) * 512 + 1 * b.val; omega

/-- Entry (0, 0, b) of the second window's block at point t is target[512·t + b]. -/
theorem target_block_apply (c : Dev nD) (t : Fin cfg0.N) (b : Fin 512) :
    (iblk m c 1 t : Vec Ideal S1x1x512 .f32) (ix3 (0 : Fin 1) (0 : Fin 1) b)
      = (m ((c : Thread nD τ).loc main_arg1) : S8192.Idx → EReal) (ix1 (row (slab t) b)) := by
  obtain ⟨-, -, -, -, e0, e1, e2, -⟩ := index_facts t
  unfold iblk
  rw [View.read_apply]
  show (V m c main_call0_v1 : S16x1x512.Idx → EReal) (((cfg0.win 1).blk t).view.emb (ix3 (0 : Fin 1) (0 : Fin 1) b)) = _
  rw [targets_by_slab]
  refine shapeCast_apply _ _ _ (ix1 (row (slab t) b)) ?_
  rw [Shape.rowMajor_val_one, Shape.rowMajor_val_three]
  show t.val * 512 + b.val = ((win0_1.index t (0 : Fin 3) * 1 + 1 * 0) * 1 + (win0_1.index t (1 : Fin 3) * 1 + 1 * 0)) * 512 + (win0_1.index t (2 : Fin 3) * 512 + 1 * b.val)
  omega

/-- So the number step t stores is the partial sum of the 512 rows with first coordinate t. -/
theorem block_loss_eq (c : Dev nD) (t : Fin cfg0.N) :
    Body.blockLoss (iblk m c 0 t) (iblk m c 1 t)
      = partialSum (m ((c : Thread nD τ).loc main_arg0)) (m ((c : Thread nD τ).loc main_arg1)) (slab t) := by
  unfold Body.blockLoss partialSum sqdev energy
  refine Finset.sum_congr rfl fun (b : Fin 512) _ => ?_
  simp only [plane_block_apply m c t, target_block_apply m c t]

/-! ## The output array after the grid -/

/-- The [16, 1, 128] array of partial sums: entry (a, 0, l) is the partial sum of a. -/
def partials (c : Dev nD) : S16x1x128.Idx → EReal := fun i =>
  partialSum (m ((c : Thread nD τ).loc main_arg0)) (m ((c : Thread nD τ).loc main_arg1)) (i 0)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What point t writes back is block t of the array of partial sums. -/
theorem flushed_eq (c : Dev nD) (t : Fin cfg0.N) :
    (dats m 0 c).flushed 2 t = ((cfg0.win 2).blk t).view.read (Elt Ideal) (partials m c) := by
  obtain ⟨-, -, -, -, -, -, -, e0, e1, e2⟩ := index_facts t
  show (cfg0.win 2).cut (grid0.coords t) ((dats m 0 c).after 2 t) = _
  rw [after0_2]
  unfold out0_2
  rw [View.canon_unit_zero hz3]
  simp only [View.ld_unit_zero (S := S1x64x64x512) hz4, View.ld_unit_zero (S := S1x1x512) hz3]
  funext j
  show k0_pay1 (F := Ideal) (iblk m c 0 t) (iblk m c 1 t) j = partials m c (((cfg0.win 2).blk t).view.emb j)
  refine (Body.stored_value (iblk m c 0 t) (iblk m c 1 t) j).trans ((block_loss_eq m c t).trans ?_)
  unfold partials
  refine congrArg (partialSum (m ((c : Thread nD τ).loc main_arg0)) (m ((c : Thread nD τ).loc main_arg1))) (Fin.ext ?_)
  show t.val = win0_2.index t (0 : Fin 3) * 1 + 1 * (j 0).val
  have hj : (j 0).val < 1 := (j 0).isLt
  omega

/-- An index of the output array is in point t's block iff each coordinate is in the block's range. -/
theorem mem_blk (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_call0_v2).slice (win0_2.rect t)).set ↔ _
  rw [View.set_slice_whole, Rect.mem_set_unit]
  exact Iff.rfl

/-- Every index (a, 0, l) lies in the block of point a. -/
theorem cover (i : S16x1x128.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 128 := (i 2).isLt
  have hN : cfg0.N = 16 := N_0
  refine ⟨⟨(i 0).val, by omega⟩, flush0_2 _, ?_⟩
  obtain ⟨-, -, -, -, -, -, -, e0, e1, e2⟩ := index_facts ⟨(i 0).val, by omega⟩
  rw [mem_blk]
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 128 ≤ (i 2).val ∧ (i 2).val < win0_2.index _ (2 : Fin 3) * 128 + 128; rw [e2]; omega

/-- After the grid the output array is the array of partial sums. -/
theorem final (c : Dev nD) : (dats m 0 c).arrAt 2 cfg0.N = partials m c :=
  (dats m 0 c).arrAt_eq_of_cover 2 (partials m c) (fun t _ => flushed_eq m c t) cover

/-! ## The host lines after the grid -/

/-- Lane 0 of each block, the 16 numbers added from 0, divided by 8192. -/
def tail (A : S16x1x128.Idx → EReal) : S_.Idx → EReal :=
  Host.divf (F := Ideal)
    (Host.reduceAdd (F := Ideal)
      (shapeCast S16 (extractStridedSlice S16x1x1 ![0, 0, 0] A slices_S16x1x128_S16x1x1_0_0_0) shapeCasts_S16x1x1_S16)
      (constant (F := Ideal) S_ .f32 0x00000000#32) reducesTo_S16_S_d0 h_S_)
    (constant (F := Ideal) S_ .f32 0x46000000#32)

/-- Read at its one index: the sum over a of entry (a, 0, 0), divided by 8192. -/
theorem tail_apply (A : S16x1x128.Idx → EReal) (i : S_.Idx) :
    tail A i = Ideal.div (∑ a : Fin 16, A (ix3 a (0 : Fin 1) (0 : Fin 128))) count := by
  unfold tail
  show Ideal.div (Host.reduceAdd (F := Ideal) _ _ reducesTo_S16_S_d0 h_S_ i) (Ideal.ofBits .f32 0x46000000#32) = _
  refine congrArg (fun s => Ideal.div s count) ?_
  generalize hy : shapeCast S16 (extractStridedSlice S16x1x1 ![0, 0, 0] A slices_S16x1x128_S16x1x1_0_0_0) shapeCasts_S16x1x1_S16 = y
  simp only [Host.reduceAdd, Ideal.hostReduceAdd_def]
  rw [Ideal.hostReduceAdd_total reducesTo_S16_S_d0 (fun b => b.elim0) y _ i]
  show Ideal.ofBits .f32 0x00000000#32 + _ = _
  rw [Ideal.ofBits_zero_f32, zero_add, sum_idx1]
  refine Finset.sum_congr rfl fun (a : Fin 16) _ => ?_
  subst hy
  refine (shapeCast_apply _ shapeCasts_S16x1x1_S16 (ix1 a) (ix3 a (0 : Fin 1) (0 : Fin 1)) ?_).trans ?_
  · rw [Shape.rowMajor_val_three, Shape.rowMajor_val_one]
    show (a.val * 1 + 0) * 1 + 0 = a.val
    omega
  · refine extractStridedSlice_apply _ A _ _ (ix3 a (0 : Fin 1) (0 : Fin 128)) fun e => ?_
    match e with
    | ⟨0, _⟩ => show a.val = 0 + a.val; omega
    | ⟨1, _⟩ => rfl
    | ⟨2, _⟩ => rfl

/-- The program's result buffer holds the tail of the output array as the grid left it. -/
theorem result_is_tail (c : Dev nD) :
    Pipeline.afterTail₀ cfgs (dats m) 0 (V0 m) [hostOps1] c main_v0
      = tail (Pipeline.withArrays (cfgs 0).spec c (V0 m c) (fun w => (dats m 0 c).arrAt w (cfgs 0).N) (Proc.devRef .tc main_call0_v2)) := by
  unfold Pipeline.afterTail₀
  show StableHlo.after hostOps1 _ (Proc.devRef .tc main_v0) = _
  after_results
  rfl

/-- The program's result is the loss of its two arguments. -/
theorem result_eq_loss (c : Dev nD) :
    Pipeline.afterTail₀ cfgs (dats m) 0 (V0 m) [hostOps1] c main_v0
      = fun _ => loss (m ((c : Thread nD τ).loc main_arg0)) (m ((c : Thread nD τ).loc main_arg1)) := by
  rw [result_is_tail, (Pipeline.withArrays_arr spec0 launch0.win.arr_inj c _ _ 2).trans (final m c)]
  funext i
  rw [tail_apply]
  rfl

/-! ## The run -/

/-- Every weakly fair execution ends with the result buffer at the loss and the arguments unchanged. -/
theorem run : θ_run defs (onTc (τ := τ) (main (F := Ideal))) ⟨m, fun _ => 0, ρ⟩ fun r => ∀ c : Dev nD,
      r.2.mem ((c : Thread nD τ).loc main_v0)
        = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v0 (Pipeline.mem_restRefs_of main_v0 (by decide) (by decide))).trans (result_eq_loss m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole

end
-- ==== Proof.lean ====
/-
  The certificate's five claims.

  Both programs compute, on the extended reals, the same number from the array x over [16, 512, 64, 64]
  and the target over [8192]:

      loss = ( Σ_a Σ_b ( (Σ_d Σ_c x[a, b, c, d]²) · 2⁻²⁵ − target[512·a + b] )² ) / 8192.

  The kernel program reaches it plane by plane on a 16-step grid — each step one partial sum over 512 rows,
  the 16 partial sums added by the host afterwards — with the factor 2⁻²⁵ a float literal that is exactly
  1 / 2²⁵; the reference flattens every plane, sums it in one pass and divides by 2²⁵, then sums the 8192
  squared deviations in one pass. The two differ only in how finite sums are grouped, and in a quotient by
  2²⁵ against a product with 2⁻²⁵, which agree at every extended real: the equality needs no finiteness of
  the inputs. The three frame claims are the programs' runs with the results forgotten; the idealized
  kernel is the kernel's own text, so there is nothing to preserve.
-/
import proofs.«165049_g13640816132828_feedfinal_596_6_alg».proof.Defs
import proofs.«165049_g13640816132828_feedfinal_596_6_alg».proof.Proof.Gen.Kernel
import proofs.«165049_g13640816132828_feedfinal_596_6_alg».proof.Proof.Gen.Kernel.Skeleton
import proofs.«165049_g13640816132828_feedfinal_596_6_alg».proof.Proof.Gen.Kernel.Launch
import proofs.«165049_g13640816132828_feedfinal_596_6_alg».proof.Proof.Gen.Kernel.Points
import proofs.«165049_g13640816132828_feedfinal_596_6_alg».proof.Proof.Gen.Kernel.Frame
import proofs.«165049_g13640816132828_feedfinal_596_6_alg».proof.Proof.Gen.KernelIdeal
import proofs.«165049_g13640816132828_feedfinal_596_6_alg».proof.Proof.Gen.KernelIdeal.Skeleton
import proofs.«165049_g13640816132828_feedfinal_596_6_alg».proof.Proof.Gen.KernelIdeal.Launch
import proofs.«165049_g13640816132828_feedfinal_596_6_alg».proof.Proof.Gen.KernelIdeal.Points
import proofs.«165049_g13640816132828_feedfinal_596_6_alg».proof.Proof.Gen.KernelIdeal.Frame
import proofs.«165049_g13640816132828_feedfinal_596_6_alg».proof.Proof.Gen.ReferenceIdeal
import proofs.«165049_g13640816132828_feedfinal_596_6_alg».proof.Proof.Gen.Pre_finite_inputs
import proofs.«165049_g13640816132828_feedfinal_596_6_alg».proof.Proof.RefValue
import proofs.«165049_g13640816132828_feedfinal_596_6_alg».proof.Proof.KernelValue
import Idealize.ShloMosaic.Adequacy
import Idealize.ShloMosaic.Init

noncomputable section

namespace Cert.Proof

open Idealize.ShloMosaic Idealize.SL.Sem Cert.Kernel

/-- The kernel program runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to justify. -/
theorem preserves : Cert.preserves_Kernel_KernelIdeal := trivial

/-- From memories that agree on x and the target, both programs end with the loss of those two arrays in
    their result buffers. -/
theorem algebraic : Cert.algebraic_KernelIdeal_ReferenceIdeal := by
  intro m ρ m' ρ' _ hagree
  refine ⟨fun c => fun _ => Cert.StyleLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq_loss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
